-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x256 : Shape := ⟨2, ![4096, 256]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_

variable [Facts]

def fn {F : FTy → Type} [FloatOps F] (main_arg0 : FVec F S4096x4096 .f32) (main_arg1 : FVec F S4096x256 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x4096 : Shape := ⟨2, ![4096, 4096]⟩
abbrev S4096x256 : Shape := ⟨2, ![4096, 256]⟩
abbrev S512x4096 : Shape := ⟨2, ![512, 4096]⟩
abbrev S1024x256 : Shape := ⟨2, ![1024, 256]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S4096x256, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S4096x256, .f32⟩
  | .local _ .vmem, ⟨5, _⟩ => ⟨S1024x256, .f32⟩
  | .local _ .vmem, ⟨6, _⟩ => ⟨S1024x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S4096x256_S4096x256_0_0 : ∀ a, (![0, 0] : Fin 2 → Nat) a + S4096x256.size a ≤ S4096x256.size a
  h_S4096x256 : 0 < S4096x256.numel
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  inb_S1024x256_S512x256_0_0 : ∀ a, (![0, 0] : Fin 2 → Nat) a + S512x256.size a ≤ S1024x256.size a
  h_S512x256 : 0 < S512x256.numel
  inb_S1024x256_S512x256_512_0 : ∀ a, (![512, 0] : Fin 2 → Nat) a + S512x256.size a ≤ S1024x256.size a
  dot_S512x4096_S4096x256_S512x256_1_0_0_1_n_n_wf : DotDims.WF S512x4096 S4096x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x256.size a
  hwx0_2 : ∀ i : grid0.Coords, EltTy.bits .f32 = 32 ∨ (Rect.block (s := S4096x256) S4096x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S4096x256.size a
  hwx0_3 : ∀ i : grid0.Coords, EltTy.bits .f32 = 32 ∨ (Rect.block (s := S4096x256) S1024x256.size (cc0_transform_3 i) (hinb0_3 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4096x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x256 : Shape := ⟨2, ![4096, 256]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S4096x256, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S4096x4096_S4096x256_S4096x256_1_0_0_1_n_n_wf : DotDims.WF S4096x4096 S4096x256 S4096x256 [1] [0] [0] [1] [] []

variable [Facts₀]

def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.LibSharedFrame.lean ====
/-
  The frame run of ONE pipelined region whose input windows may read the SAME array.

  When a kernel is handed one array through several input windows, the buffers behind the windows' arrays are
  fewer than the windows, and the full share of the common buffer has to be dealt among the windows on it. This
  file states the frame run for that situation once: given proof data, the body obligation, the program's shape up
  to the region, and an entailment `hsplit` saying how the distinct buffers behind the arrays (each whole, at the
  full share, at the region-entry contents) make up the proof data's windowed arrays at entry, every weakly fair
  execution terminates and ends with every windowed array at what the proof data computes (`Dat.arrAt … N`) and
  every other unscoped buffer at its region-entry contents. The kernel is assumed to use no semaphore of its own and
  to carry nothing between points but what its invariant `Φ` says of the scoped buffers that are no staging buffer.
-/
import Idealize.ShloMosaic.Lib.Pipeline.Frame

noncomputable section

namespace Cert.Lib.SharedFrame

open Idealize.ShloMosaic Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open Idealize.ShloMosaic.Rounds
open TcCoe

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The frame run for a region whose windows may share arrays: the layout facts but for the arrays' distinctness
    (`hw`), the dealing of each shared buffer's full share among its windows (`hsplit`), the invariant entered from
    and returned to the scoped rest (`hin`, `hout`). Concludes the frame post: each windowed array at
    `arrAt w N`, each bypassing buffer as the region found it. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr
      · iempintro
      · iexact H)
    (hin := fun c => (show _ ⊢ (scopedRest (cfgs p).spec c : sProp 𝕄) from by iintro ⟨-, H⟩; iexact H).trans (hin c))
    (hout := fun c => (hout c).trans (by
      iintro H
      isplitr
      · iempintro
      · iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.Lib.SharedFrame

end
-- ==== Proof.KernelRegion.lean ====
/-
  The one pipelined region of this program, by hand: a row-blocked matrix product whose two left-operand windows
  read the SAME array.

  The grid has four points. At point t the body is handed rows [1024 t, 1024 t + 512) and [1024 t + 512, 1024 t + 1024)
  of the left matrix (two windows on one array, at block rows 2t and 2t + 1), the whole right matrix (one window,
  fetched once), and writes the 1024 × 256 output block at block row t in two halves: the upper half is the product of
  the first left block with the right matrix, the lower half the product of the second. Here: what the region finds in
  its arrays, what each staging buffer holds when the body runs, what the body leaves in the output's buffer (its two
  stores laid over one another), the body's triple, the proof data with the left matrix's share dealt in two halves to
  its two windows, the body obligation at every point, and the run.
-/
import proofs.«145418_g16793322127803_cont_week2b_1278_15_alg».proof.Proof.Gen.Kernel.Launch
import proofs.«145418_g16793322127803_cont_week2b_1278_15_alg».proof.Proof.Gen.Kernel.Skeleton
import proofs.«145418_g16793322127803_cont_week2b_1278_15_alg».proof.Proof.Gen.Kernel.Points
import proofs.«145418_g16793322127803_cont_week2b_1278_15_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- What core `c`'s buffers hold when the region is entered: the launch contents (nothing runs before it). -/
abbrev V (c : Dev nD) (b : Ref sig .tc) : Buf (Elt F) ((c : Thread nD τ).loc b) := m ((c : Thread nD τ).loc b)

/-- The program is the region and the return. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose body leaves its block in place holds its block at every point, fetched there or not
    (not fetched, its block row has not moved). Stated for each of the three input windows. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole of a left block, the whole of the right matrix, and the upper and lower halves of the output block. -/
abbrev rLeft : Rect S512x4096 := Rect.unit (s := S512x4096) ![0, 0] S512x4096.size inb_S512x4096_S512x4096_0_0
abbrev rRight : Rect S4096x256 := Rect.unit (s := S4096x256) ![0, 0] S4096x256.size inb_S4096x256_S4096x256_0_0
abbrev rUpper : Rect S1024x256 := Rect.unit (s := S1024x256) ![0, 0] S512x256.size inb_S1024x256_S512x256_0_0
abbrev rLower : Rect S1024x256 := Rect.unit (s := S1024x256) ![512, 0] S512x256.size inb_S1024x256_S512x256_512_0

/-! ## What the body leaves in the output window's buffer -/

/-- The output block after the body, from the three input blocks: the lower half's store laid over the upper half's
    (the later store first). -/
def outBlock (a0 a1 : Vec F S512x4096 .f32) (b : Vec F S4096x256 .f32) : Vec F S1024x256 .f32 :=
  View.canon [⟨rLower, k0_pay3 (View.ld b rRight) (View.ld a1 rLeft)⟩, ⟨rUpper, k0_pay2 (View.ld b rRight) (View.ld a0 rLeft)⟩]

/-- The two halves tile the block, so they cover it. -/
theorem cover_out (p1 p0 : Vec F S512x256 .f32) (y : S1024x256.Idx) :
    ∃ pc ∈ ([⟨rLower, p1⟩, ⟨rUpper, p0⟩] : List (View.Piece (Elt F) S1024x256 .f32)), y ∈ pc.1.set :=
  View.cover_of_tiled [⟨rLower, p1⟩, ⟨rUpper, p0⟩] S512x256.size (by rfl) y

/-! ## The body's triple -/

set_option maxHeartbeats 1000000 in
/-- The body on whole staging memrefs — the three inputs' at read contents `a0`, `a1`, `b`, the output's at anything —
    runs to the continuation holding the inputs' as they were and the output's at `outBlock a0 a1 b`. -/
theorem sound_kernel (c : Dev nD) (E : Set ℕ) (i : grid0.Coords)
    (arg1 : Memref sig .tc .vmem S512x4096 .f32) (harg1 : arg1.IsWhole) (arg2 : Memref sig .tc .vmem S512x4096 .f32) (harg2 : arg2.IsWhole)
    (arg3 : Memref sig .tc .vmem S4096x256 .f32) (harg3 : arg3.IsWhole) (arg4 : Memref sig .tc .vmem S1024x256 .f32) (harg4 : arg4.IsWhole)
    (a0 a1 : Vec F S512x4096 .f32) (b : Vec F S4096x256 .f32) (K : PUnit → sProp 𝕄) :
    iprop(owns (c : Thread nD τ) arg1 fullShare a0 ∗ owns (c : Thread nD τ) arg2 fullShare a1 ∗ owns (c : Thread nD τ) arg3 fullShare b
        ∗ (∃ d, owns (c : Thread nD τ) arg4 fullShare d)
        ∗ (iprop(owns (c : Thread nD τ) arg1 fullShare a0 ∗ owns (c : Thread nD τ) arg2 fullShare a1 ∗ owns (c : Thread nD τ) arg3 fullShare b
            ∗ owns (c : Thread nD τ) arg4 fullShare (outBlock a0 a1 b)) -∗ K ⟨⟩))
      ⊢ wp frame (wpE (defs₀ (F := F)) Variants.none c none) E (cc0__mm_kernel i arg1 harg1 arg2 harg2 arg3 harg3 arg4 harg4) K := by
  simp only [cc0__mm_kernel_eq_skeleton]; unfold cc0__mm_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _ _)

/-! ## The proof data -/

/-- The proof data of the region on core `c`: the arrays as the region finds them; after the body at point `t` each
    input's buffer still at its block and the output's at `outBlock` of the three input blocks; the invariant the core's
    scoped buffers that are no staging buffer (there are none), untouched; nothing owed. The left matrix is read by
    windows 0 and 1: its share is dealt in two halves, the left half to window 0 and the right half to window 1. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = outBlock (iblk m c 0 t) (iblk m c 1 t) (iblk m c 2 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dats (F := F) m 0 c) (defs₀ (F := F)) Variants.none () Set.univ := fun t => by
  rw [bigSep_W0, bigSep_W0]
  exact sound_body m c t

/-! ## The left matrix's share, dealt to its two windows -/

/-- The three buffers behind the four windows' arrays, each whole at the full share, make the windows' arrays at
    entry: the left matrix's full share is its left and right halves, one for each of the two windows that read it. -/
theorem hsplit (c : Dev nD) :
    (Pipeline.arrBufs spec0 c (V m c) : sProp 𝕄) ⊢ (dats m 0 c).arrays ((dats m 0 c).arrAt · 0) := by
  have e : ∀ Φ : Ref sig .tc → sProp 𝕄,
      bigSep (Finset.univ.image (Pipeline.arrRef spec0)) Φ = iprop(Φ main_arg0 ∗ Φ main_arg1 ∗ Φ main_v0) :=
    fun Φ => bigSep_eq_bigSepL_of_eq [main_arg0, main_arg1, main_v0] (by decide) (by decide) Φ
  have halves : ((((c : Thread nD τ).loc main_arg0) ↦{fullShare} V m c main_arg0) : sProp 𝕄)
      ⊢ iprop((((c : Thread nD τ).loc main_arg0) ↦{fullShare.left} V m c main_arg0)
          ∗ (((c : Thread nD τ).loc main_arg0) ↦{fullShare.right} V m c main_arg0)) :=
    (pointsTo_share (PosShare.mem_left_op_right fullShare)).1
  unfold Pipeline.arrBufs Dat.arrays
  rw [e, bigSep_W0]
  simp only [View.set_whole]
  refine (sep_mono halves .rfl).trans ?_
  iintro ⟨⟨Hl, Hr⟩, Hb, Ho⟩
  isplitl [Hl]; · iexact Hl
  isplitl [Hr]; · iexact Hr
  isplitl [Hb]; · iexact Hb
  iexact Ho

/-! ## The run and the frame -/

set_option backward.isDefEq.respectTransparency.types false in
/-- Every weakly fair execution of the program terminates, and every final state has each windowed array at what the
    proof data computes and every other unscoped buffer as the region found it. -/
theorem run_main : θ_run defs (onTc (τ := τ) (main (F := F))) (s₀ m ρ) (Pipeline.FramePost cfgs (dats m) 0 (V m)) :=
  Cert.Lib.SharedFrame.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hin := fun _ => .rfl) (hout := fun _ => .rfl)

/-- The run with the result array named: it ends at the output window's array after all four write-backs, and the
    two argument arrays end as launched (an input window's array is never written). -/
theorem run_named : θ_run defs (onTc (τ := τ) (main (F := F))) ⟨m, fun _ => 0, ρ⟩ (fun r => ∀ c : Dev nD,
      r.2.mem ((c.tc : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1 3,
      ((h c).1 0).trans (((dats m 0 c).arrAt_in 0 rfl _).trans (A_eq m c 0)),
      ((h c).1 2).trans (((dats m 0 c).arrAt_in 2 rfl _).trans (A_eq m c 2))⟩) (run_main m ρ)

/-- The frame: the program runs to the end without a fault and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_named m ρ)

end Cert.Kernel.Region

end
-- ==== Proof.KernelIdealRegion.lean ====
/-
  The one pipelined region of this program, by hand: a row-blocked matrix product whose two left-operand windows
  read the SAME array.

  The grid has four points. At point t the body is handed rows [1024 t, 1024 t + 512) and [1024 t + 512, 1024 t + 1024)
  of the left matrix (two windows on one array, at block rows 2t and 2t + 1), the whole right matrix (one window,
  fetched once), and writes the 1024 × 256 output block at block row t in two halves: the upper half is the product of
  the first left block with the right matrix, the lower half the product of the second. Here: what the region finds in
  its arrays, what each staging buffer holds when the body runs, what the body leaves in the output's buffer (its two
  stores laid over one another), the body's triple, the proof data with the left matrix's share dealt in two halves to
  its two windows, the body obligation at every point, and the run.
-/
import proofs.«145418_g16793322127803_cont_week2b_1278_15_alg».proof.Proof.Gen.KernelIdeal.Launch
import proofs.«145418_g16793322127803_cont_week2b_1278_15_alg».proof.Proof.Gen.KernelIdeal.Skeleton
import proofs.«145418_g16793322127803_cont_week2b_1278_15_alg».proof.Proof.Gen.KernelIdeal.Points
import proofs.«145418_g16793322127803_cont_week2b_1278_15_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- What core `c`'s buffers hold when the region is entered: the launch contents (nothing runs before it). -/
abbrev V (c : Dev nD) (b : Ref sig .tc) : Buf (Elt F) ((c : Thread nD τ).loc b) := m ((c : Thread nD τ).loc b)

/-- The program is the region and the return. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose body leaves its block in place holds its block at every point, fetched there or not
    (not fetched, its block row has not moved). Stated for each of the three input windows. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole of a left block, the whole of the right matrix, and the upper and lower halves of the output block. -/
abbrev rLeft : Rect S512x4096 := Rect.unit (s := S512x4096) ![0, 0] S512x4096.size inb_S512x4096_S512x4096_0_0
abbrev rRight : Rect S4096x256 := Rect.unit (s := S4096x256) ![0, 0] S4096x256.size inb_S4096x256_S4096x256_0_0
abbrev rUpper : Rect S1024x256 := Rect.unit (s := S1024x256) ![0, 0] S512x256.size inb_S1024x256_S512x256_0_0
abbrev rLower : Rect S1024x256 := Rect.unit (s := S1024x256) ![512, 0] S512x256.size inb_S1024x256_S512x256_512_0

/-! ## What the body leaves in the output window's buffer -/

/-- The output block after the body, from the three input blocks: the lower half's store laid over the upper half's
    (the later store first). -/
def outBlock (a0 a1 : Vec F S512x4096 .f32) (b : Vec F S4096x256 .f32) : Vec F S1024x256 .f32 :=
  View.canon [⟨rLower, k0_pay3 (View.ld b rRight) (View.ld a1 rLeft)⟩, ⟨rUpper, k0_pay2 (View.ld b rRight) (View.ld a0 rLeft)⟩]

/-- The two halves tile the block, so they cover it. -/
theorem cover_out (p1 p0 : Vec F S512x256 .f32) (y : S1024x256.Idx) :
    ∃ pc ∈ ([⟨rLower, p1⟩, ⟨rUpper, p0⟩] : List (View.Piece (Elt F) S1024x256 .f32)), y ∈ pc.1.set :=
  View.cover_of_tiled [⟨rLower, p1⟩, ⟨rUpper, p0⟩] S512x256.size (by rfl) y

/-! ## The body's triple -/

set_option maxHeartbeats 1000000 in
/-- The body on whole staging memrefs — the three inputs' at read contents `a0`, `a1`, `b`, the output's at anything —
    runs to the continuation holding the inputs' as they were and the output's at `outBlock a0 a1 b`. -/
theorem sound_kernel (c : Dev nD) (E : Set ℕ) (i : grid0.Coords)
    (arg1 : Memref sig .tc .vmem S512x4096 .f32) (harg1 : arg1.IsWhole) (arg2 : Memref sig .tc .vmem S512x4096 .f32) (harg2 : arg2.IsWhole)
    (arg3 : Memref sig .tc .vmem S4096x256 .f32) (harg3 : arg3.IsWhole) (arg4 : Memref sig .tc .vmem S1024x256 .f32) (harg4 : arg4.IsWhole)
    (a0 a1 : Vec F S512x4096 .f32) (b : Vec F S4096x256 .f32) (K : PUnit → sProp 𝕄) :
    iprop(owns (c : Thread nD τ) arg1 fullShare a0 ∗ owns (c : Thread nD τ) arg2 fullShare a1 ∗ owns (c : Thread nD τ) arg3 fullShare b
        ∗ (∃ d, owns (c : Thread nD τ) arg4 fullShare d)
        ∗ (iprop(owns (c : Thread nD τ) arg1 fullShare a0 ∗ owns (c : Thread nD τ) arg2 fullShare a1 ∗ owns (c : Thread nD τ) arg3 fullShare b
            ∗ owns (c : Thread nD τ) arg4 fullShare (outBlock a0 a1 b)) -∗ K ⟨⟩))
      ⊢ wp frame (wpE (defs₀ (F := F)) Variants.none c none) E (cc0__mm_kernel i arg1 harg1 arg2 harg2 arg3 harg3 arg4 harg4) K := by
  simp only [cc0__mm_kernel_eq_skeleton]; unfold cc0__mm_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _ _)

/-! ## The proof data -/

/-- The proof data of the region on core `c`: the arrays as the region finds them; after the body at point `t` each
    input's buffer still at its block and the output's at `outBlock` of the three input blocks; the invariant the core's
    scoped buffers that are no staging buffer (there are none), untouched; nothing owed. The left matrix is read by
    windows 0 and 1: its share is dealt in two halves, the left half to window 0 and the right half to window 1. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = outBlock (iblk m c 0 t) (iblk m c 1 t) (iblk m c 2 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dats (F := F) m 0 c) (defs₀ (F := F)) Variants.none () Set.univ := fun t => by
  rw [bigSep_W0, bigSep_W0]
  exact sound_body m c t

/-! ## The left matrix's share, dealt to its two windows -/

/-- The three buffers behind the four windows' arrays, each whole at the full share, make the windows' arrays at
    entry: the left matrix's full share is its left and right halves, one for each of the two windows that read it. -/
theorem hsplit (c : Dev nD) :
    (Pipeline.arrBufs spec0 c (V m c) : sProp 𝕄) ⊢ (dats m 0 c).arrays ((dats m 0 c).arrAt · 0) := by
  have e : ∀ Φ : Ref sig .tc → sProp 𝕄,
      bigSep (Finset.univ.image (Pipeline.arrRef spec0)) Φ = iprop(Φ main_arg0 ∗ Φ main_arg1 ∗ Φ main_v0) :=
    fun Φ => bigSep_eq_bigSepL_of_eq [main_arg0, main_arg1, main_v0] (by decide) (by decide) Φ
  have halves : ((((c : Thread nD τ).loc main_arg0) ↦{fullShare} V m c main_arg0) : sProp 𝕄)
      ⊢ iprop((((c : Thread nD τ).loc main_arg0) ↦{fullShare.left} V m c main_arg0)
          ∗ (((c : Thread nD τ).loc main_arg0) ↦{fullShare.right} V m c main_arg0)) :=
    (pointsTo_share (PosShare.mem_left_op_right fullShare)).1
  unfold Pipeline.arrBufs Dat.arrays
  rw [e, bigSep_W0]
  simp only [View.set_whole]
  refine (sep_mono halves .rfl).trans ?_
  iintro ⟨⟨Hl, Hr⟩, Hb, Ho⟩
  isplitl [Hl]; · iexact Hl
  isplitl [Hr]; · iexact Hr
  isplitl [Hb]; · iexact Hb
  iexact Ho

/-! ## The run and the frame -/

set_option backward.isDefEq.respectTransparency.types false in
/-- Every weakly fair execution of the program terminates, and every final state has each windowed array at what the
    proof data computes and every other unscoped buffer as the region found it. -/
theorem run_main : θ_run defs (onTc (τ := τ) (main (F := F))) (s₀ m ρ) (Pipeline.FramePost cfgs (dats m) 0 (V m)) :=
  Cert.Lib.SharedFrame.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hin := fun _ => .rfl) (hout := fun _ => .rfl)

/-- The run with the result array named: it ends at the output window's array after all four write-backs, and the
    two argument arrays end as launched (an input window's array is never written). -/
theorem run_named : θ_run defs (onTc (τ := τ) (main (F := F))) ⟨m, fun _ => 0, ρ⟩ (fun r => ∀ c : Dev nD,
      r.2.mem ((c.tc : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1 3,
      ((h c).1 0).trans (((dats m 0 c).arrAt_in 0 rfl _).trans (A_eq m c 0)),
      ((h c).1 2).trans (((dats m 0 c).arrAt_in 2 rfl _).trans (A_eq m c 2))⟩) (run_main m ρ)

/-- The frame: the program runs to the end without a fault and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_named m ρ)

end Cert.KernelIdeal.Region

end
-- ==== Proof.Spec.lean ====
/-
  The specification: the product of a 4096 × 4096 matrix with a 4096 × 256 matrix over the extended reals — the
  entry at row r and column c is the sum over the inner index k of A(r, k) · B(k, c).
-/
import Idealize.ShloMosaic.PureOps.Ideal
import Idealize.ShloMosaic.Lib.ValueIdx

noncomputable section

namespace Cert.Spec

open Idealize.ShloMosaic Idealize.ShloMosaic.ValueIdx

/-- The left matrix's shape, and the right matrix's, which is also the product's. -/
abbrev SLeft : Shape := ⟨2, ![4096, 4096]⟩
abbrev SRight : Shape := ⟨2, ![4096, 256]⟩

/-- Entry (r, k) of the left matrix and entry (k, c) of the right one, as indices. -/
abbrev atLeft (r k : Fin 4096) : SLeft.Idx := ix2 r k
abbrev atRight (k : Fin 4096) (c : Fin 256) : SRight.Idx := ix2 k c

/-- The row of an index of the product, and its column. -/
abbrev rowOf (i : SRight.Idx) : Fin 4096 := ⟨(i 0).val, (i 0).isLt⟩
abbrev colOf (i : SRight.Idx) : Fin 256 := ⟨(i 1).val, (i 1).isLt⟩

/-- The matrix product, entry by entry. -/
def product (A : SLeft.Idx → EReal) (B : SRight.Idx → EReal) : SRight.Idx → EReal :=
  fun i => ∑ k : Fin 4096, A (atLeft (rowOf i) k) * B (atRight k (colOf i))

end Cert.Spec

end
-- ==== Proof.KernelIdealProduct.lean ====
/-
  What the idealized kernel's result array holds after the run: the matrix product of the two argument matrices.

  At the ideal instance each half of an output block is a zero-accumulator matrix product of a 512 × 4096 block of the
  left matrix with the whole right matrix: entry (r, c) of the half is the sum over k of block(r, k) · B(k, c). The
  block handed to the upper half at point t is rows 1024 t … 1024 t + 511 of the left matrix (block row 2t of height 512),
  the one handed to the lower half rows 1024 t + 512 … 1024 t + 1023 (block row 2t + 1); the output block written back
  at point t is rows 1024 t … 1024 t + 1023 of the result. So row by row the block written back is the product's, the
  four blocks tile the result, and the result array ends holding the product.
-/
import proofs.«145418_g16793322127803_cont_week2b_1278_15_alg».proof.Proof.KernelIdealRegion
import proofs.«145418_g16793322127803_cont_week2b_1278_15_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Product

open Cert.KernelIdeal Cert.KernelIdeal.Gen Cert.KernelIdeal.Region
open Idealize.ShloMosaic Idealize.ShloMosaic.TcCoe Idealize.ShloMosaic.ValueIdx
open Idealize.SL.Sem
open Idealize.ShloMosaic.Pipeline (Dat)

/-- The contraction of a left block's columns with the right matrix's rows. -/
abbrev dims := dot_S512x4096_S4096x256_S512x256_1_0_0_1_n_n

theorem hz : (![0, 0] : Fin 2 → Nat) = fun _ => 0 := funext fun a => by fin_cases a <;> rfl

/-! ## One half of an output block, entry by entry -/

/-- The left operand's index at output entry `i` and inner index `q`: row `i 0`, column `q`. -/
theorem lhs_row (i : S512x256.Idx) (q : dims.contr.Idx) : (dims.lhsIdx i q 0).val = (i 0).val := by
  unfold DotDims.lhsIdx
  rw [dif_neg (show ¬(0 : Fin S512x4096.rank) ∈ dims.lhsBatch by decide), dif_pos (show (0 : Fin S512x4096.rank) ∈ dims.lhsNonContracting by decide)]
  rfl
theorem lhs_col (i : S512x256.Idx) (q : dims.contr.Idx) : (dims.lhsIdx i q 1).val = (q ⟨0, by decide⟩).val :=
  dims.lhsIdx_val_of_single rfl i q
/-- The right operand's: row `q`, column `i 1`. -/
theorem rhs_row (i : S512x256.Idx) (q : dims.contr.Idx) : (dims.rhsIdx i q 0).val = (q ⟨0, by decide⟩).val :=
  dims.rhsIdx_val_of_single rfl i q
theorem rhs_col (i : S512x256.Idx) (q : dims.contr.Idx) : (dims.rhsIdx i q 1).val = (i 1).val := by
  unfold DotDims.rhsIdx
  rw [dif_neg (show ¬(1 : Fin S4096x256.rank) ∈ dims.rhsBatch by decide), dif_pos (show (1 : Fin S4096x256.rank) ∈ dims.rhsNonContracting by decide)]
  rfl

/-- A half block is the product of its left block with the right matrix: entry (r, c) is the sum over the inner index
    of the left block's (r, k) times the right matrix's (k, c). The narrowing of the operands is the identity on the
    extended reals and the accumulator is zero. -/
theorem half_at (b : Vec Ideal S4096x256 .f32) (a : Vec Ideal S512x4096 .f32) (x : S512x256.Idx) :
    k0_pay2 (F := Ideal) b a x
      = ∑ k : Fin 4096, a (ix2 (n0 := 512) (n1 := 4096) ⟨(x 0).val, (x 0).isLt⟩ k) * b (ix2 (n0 := 4096) (n1 := 256) k ⟨(x 1).val, (x 1).isLt⟩) := by
  unfold k0_pay2 k0_pay1
  refine (Ideal.matmul_constant_zero_apply dims none _ _ x).trans ?_
  rw [← Equiv.sum_comp (contrEquiv1 dims 4096 rfl rfl).symm]
  refine Finset.sum_congr rfl fun k _ => ?_
  have hk := contrEquiv1_symm_val dims 4096 rfl rfl k
  have el : dims.lhsIdx x ((contrEquiv1 dims 4096 rfl rfl).symm k) = ix2 (n0 := 512) (n1 := 4096) ⟨(x 0).val, (x 0).isLt⟩ k :=
    funext fun d => Fin.ext (by
      match d with
      | ⟨0, _⟩ => exact lhs_row _ _
      | ⟨1, _⟩ => exact (lhs_col _ _).trans hk)
  have er : dims.rhsIdx x ((contrEquiv1 dims 4096 rfl rfl).symm k) = ix2 (n0 := 4096) (n1 := 256) k ⟨(x 1).val, (x 1).isLt⟩ :=
    funext fun d => Fin.ext (by
      match d with
      | ⟨0, _⟩ => exact (rhs_row _ _).trans hk
      | ⟨1, _⟩ => exact rhs_col _ _)
  show a (dims.lhsIdx x ((contrEquiv1 dims 4096 rfl rfl).symm k)) * b (dims.rhsIdx x ((contrEquiv1 dims 4096 rfl rfl).symm k)) = _
  rw [el, er]

/-- The lower half's payload is the same function of its own left block. -/
theorem lower_eq (b : Vec Ideal S4096x256 .f32) (a : Vec Ideal S512x4096 .f32) : k0_pay3 (F := Ideal) b a = k0_pay2 (F := Ideal) b a := rfl

/-! ## What each point writes back -/

variable (m : (ℓ : Loc nD τ sig) → Buf (Elt Ideal) ℓ) (ρ : Dev nD → PrngReg)

/-- The printed index maps, decided over the grid: at point t the two left windows sit at block rows 2t and 2t + 1 of
    height 512, the right window at the whole matrix, the output window at block row t of height 1024. -/
theorem idx_facts : ∀ t : Fin cfg0.N,
    win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Two half blocks that agree, each on its own rows, with one function of the block's index make up that function:
    the lower half's store laid over the upper half's. -/
theorem block_of_halves (a0 a1 : Vec Ideal S512x4096 .f32) (b : Vec Ideal S4096x256 .f32) (Gb : S1024x256.Idx → EReal)
    (hup : ∀ x : S512x256.Idx, k0_pay2 (F := Ideal) b a0 x = Gb (rUpper.emb x))
    (hlo : ∀ x : S512x256.Idx, k0_pay3 (F := Ideal) b a1 x = Gb (rLower.emb x)) :
    outBlock (F := Ideal) a0 a1 b = Gb := by
  unfold outBlock
  simp only [View.ld_unit_zero (S := S4096x256) hz, View.ld_unit_zero (S := S512x4096) hz]
  funext y
  refine View.canon_apply_of_pieces (Val := Elt Ideal) Gb _ ?_ y (cover_out _ _ y)
  intro p hp x
  rcases List.mem_cons.mp hp with rfl | hp
  · exact hlo x
  · rcases List.mem_cons.mp hp with rfl | hp
    · exact hup x
    · exact absurd hp List.not_mem_nil

/-- WHAT POINT t WRITES BACK is block t of the product of the two argument matrices as the region finds them. -/
theorem flushed_eq (c : Dev nD) (t : Fin cfg0.N) :
    (dats m 0 c).flushed 3 t
      = ((cfg0.win 3).blk t).view.read (Elt Ideal) (Cert.Spec.product (V m c main_arg0) (V m c main_arg1)) := by
  show (cfg0.win 3).cut (grid0.coords t) ((dats m 0 c).after 3 t) = _
  rw [after3]
  obtain ⟨e00, e01, e10, e11, e20, e21, e30, e31⟩ := idx_facts t
  refine block_of_halves (iblk m c 0 t) (iblk m c 1 t) (iblk m c 2 t) _ ?_ ?_
  ·
    intro x
    refine (half_at _ _ x).trans ?_
    show _ = Cert.Spec.product (V m c main_arg0) (V m c main_arg1) (((cfg0.win 3).blk t).view.emb (rUpper.emb x))
    unfold Cert.Spec.product
    refine Finset.sum_congr rfl fun k _ => ?_
    have hl : ((cfg0.win 0).blk t).view.emb (ix2 (n0 := 512) (n1 := 4096) ⟨(x 0).val, (x 0).isLt⟩ k)
        = Cert.Spec.atLeft (Cert.Spec.rowOf (((cfg0.win 3).blk t).view.emb (rUpper.emb x))) k := by
      funext a; apply Fin.ext
      match a with
      | ⟨0, _⟩ =>
        show win0_0.index t (0 : Fin 2) * 512 + 1 * (x 0).val = win0_3.index t (0 : Fin 2) * 1024 + 1 * (0 + 1 * (x 0).val)
        omega
      | ⟨1, _⟩ =>
        show win0_0.index t (1 : Fin 2) * 4096 + 1 * k.val = k.val
        omega
    have hr : ((cfg0.win 2).blk t).view.emb (ix2 (n0 := 4096) (n1 := 256) k ⟨(x 1).val, (x 1).isLt⟩)
        = Cert.Spec.atRight k (Cert.Spec.colOf (((cfg0.win 3).blk t).view.emb (rUpper.emb x))) := by
      funext a; apply Fin.ext
      match a with
      | ⟨0, _⟩ =>
        show win0_2.index t (0 : Fin 2) * 4096 + 1 * k.val = k.val
        omega
      | ⟨1, _⟩ =>
        show win0_2.index t (1 : Fin 2) * 256 + 1 * (x 1).val = win0_3.index t (1 : Fin 2) * 256 + 1 * (0 + 1 * (x 1).val)
        omega
    have el : iblk m c 0 t (ix2 (n0 := 512) (n1 := 4096) ⟨(x 0).val, (x 0).isLt⟩ k)
        = V m c main_arg0 (Cert.Spec.atLeft (Cert.Spec.rowOf (((cfg0.win 3).blk t).view.emb (rUpper.emb x))) k) := by
      show V m c main_arg0 (((cfg0.win 0).blk t).view.emb (ix2 (n0 := 512) (n1 := 4096) ⟨(x 0).val, (x 0).isLt⟩ k)) = _
      rw [hl]
    have er : iblk m c 2 t (ix2 (n0 := 4096) (n1 := 256) k ⟨(x 1).val, (x 1).isLt⟩)
        = V m c main_arg1 (Cert.Spec.atRight k (Cert.Spec.colOf (((cfg0.win 3).blk t).view.emb (rUpper.emb x)))) := by
      show V m c main_arg1 (((cfg0.win 2).blk t).view.emb (ix2 (n0 := 4096) (n1 := 256) k ⟨(x 1).val, (x 1).isLt⟩)) = _
      rw [hr]
    rw [el, er]
  ·
    intro x
    rw [lower_eq]
    refine (half_at _ _ x).trans ?_
    show _ = Cert.Spec.product (V m c main_arg0) (V m c main_arg1) (((cfg0.win 3).blk t).view.emb (rLower.emb x))
    unfold Cert.Spec.product
    refine Finset.sum_congr rfl fun k _ => ?_
    have hl : ((cfg0.win 1).blk t).view.emb (ix2 (n0 := 512) (n1 := 4096) ⟨(x 0).val, (x 0).isLt⟩ k)
        = Cert.Spec.atLeft (Cert.Spec.rowOf (((cfg0.win 3).blk t).view.emb (rLower.emb x))) k := by
      funext a; apply Fin.ext
      match a with
      | ⟨0, _⟩ =>
        show win0_1.index t (0 : Fin 2) * 512 + 1 * (x 0).val = win0_3.index t (0 : Fin 2) * 1024 + 1 * (512 + 1 * (x 0).val)
        omega
      | ⟨1, _⟩ =>
        show win0_1.index t (1 : Fin 2) * 4096 + 1 * k.val = k.val
        omega
    have hr : ((cfg0.win 2).blk t).view.emb (ix2 (n0 := 4096) (n1 := 256) k ⟨(x 1).val, (x 1).isLt⟩)
        = Cert.Spec.atRight k (Cert.Spec.colOf (((cfg0.win 3).blk t).view.emb (rLower.emb x))) := by
      funext a; apply Fin.ext
      match a with
      | ⟨0, _⟩ =>
        show win0_2.index t (0 : Fin 2) * 4096 + 1 * k.val = k.val
        omega
      | ⟨1, _⟩ =>
        show win0_2.index t (1 : Fin 2) * 256 + 1 * (x 1).val = win0_3.index t (1 : Fin 2) * 256 + 1 * (0 + 1 * (x 1).val)
        omega
    have el : iblk m c 1 t (ix2 (n0 := 512) (n1 := 4096) ⟨(x 0).val, (x 0).isLt⟩ k)
        = V m c main_arg0 (Cert.Spec.atLeft (Cert.Spec.rowOf (((cfg0.win 3).blk t).view.emb (rLower.emb x))) k) := by
      show V m c main_arg0 (((cfg0.win 1).blk t).view.emb (ix2 (n0 := 512) (n1 := 4096) ⟨(x 0).val, (x 0).isLt⟩ k)) = _
      rw [hl]
    have er : iblk m c 2 t (ix2 (n0 := 4096) (n1 := 256) k ⟨(x 1).val, (x 1).isLt⟩)
        = V m c main_arg1 (Cert.Spec.atRight k (Cert.Spec.colOf (((cfg0.win 3).blk t).view.emb (rLower.emb x)))) := by
      show V m c main_arg1 (((cfg0.win 2).blk t).view.emb (ix2 (n0 := 4096) (n1 := 256) k ⟨(x 1).val, (x 1).isLt⟩)) = _
      rw [hr]
    rw [el, er]

/-! ## The four blocks tile the result -/

/-- An index of the result is in point t's block iff each coordinate is in the block's range on its axis. -/
theorem mem_blk (t : Fin cfg0.N) (i : S4096x256.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_v0).slice (win0_3.rect t)).set ↔ _
  rw [View.set_slice_whole, Rect.mem_set_unit]
  exact Iff.rfl

/-- Row r of the result lies in the block written back at point r / 1024. -/
theorem covered (i : S4096x256.Idx) :
    ∃ t : Fin cfg0.N, (cfg0.win 3).flush t = true ∧ i ∈ ((cfg0.win 3).blk t).view.set := by
  have hi0 : (i 0).val < 4096 := (i 0).isLt
  have hi1 : (i 1).val < 256 := (i 1).isLt
  have ht : (i 0).val / 1024 < cfg0.N := by show (i 0).val / 1024 < grid0.N; rw [N_0]; omega
  obtain ⟨-, -, -, -, -, -, e30, e31⟩ := idx_facts ⟨(i 0).val / 1024, ht⟩
  refine ⟨⟨(i 0).val / 1024, ht⟩, flush0_3 _, ?_⟩
  rw [mem_blk]
  intro a
  match a with
  | ⟨0, _⟩ =>
    show win0_3.index ⟨(i 0).val / 1024, ht⟩ (0 : Fin 2) * 1024 ≤ (i 0).val ∧ (i 0).val < win0_3.index ⟨(i 0).val / 1024, ht⟩ (0 : Fin 2) * 1024 + 1024
    rw [e30]; show (i 0).val / 1024 * 1024 ≤ (i 0).val ∧ (i 0).val < (i 0).val / 1024 * 1024 + 1024
    omega
  | ⟨1, _⟩ =>
    show win0_3.index ⟨(i 0).val / 1024, ht⟩ (1 : Fin 2) * 256 ≤ (i 1).val ∧ (i 1).val < win0_3.index ⟨(i 0).val / 1024, ht⟩ (1 : Fin 2) * 256 + 256
    rw [e31]; omega

/-! ## The result array after the run -/

/-- THE RESULT ARRAY after the four write-backs is the product of the two argument matrices as launched. -/
theorem final (c : Dev nD) :
    (dats m 0 c).arrAt 3 cfg0.N
      = Cert.Spec.product (m ((c : Thread nD τ).loc main_arg0)) (m ((c : Thread nD τ).loc main_arg1)) :=
  (dats m 0 c).arrAt_eq_of_cover 3 _ (fun t _ => flushed_eq m c t) covered

/-- The idealized kernel's run, read: the result array ends at the matrix product of the argument arrays, which end
    unchanged. -/
theorem run : θ_run defs (onTc (τ := τ) (main (F := Ideal))) ⟨m, fun _ => 0, ρ⟩ fun r => ∀ c : Dev nD,
      r.2.mem ((c.tc : Thread nD τ).loc main_v0)
        = Cert.Spec.product (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final m c), (h c).2⟩) (run_named m ρ)

end Cert.KernelIdeal.Product

end
-- ==== Proof.Reference.lean ====
/-
  The reference side: the host's one contraction of the two argument matrices is the matrix product, entry by entry.
-/
import proofs.«145418_g16793322127803_cont_week2b_1278_15_alg».proof.Proof.Gen.ReferenceIdeal.Run
import proofs.«145418_g16793322127803_cont_week2b_1278_15_alg».proof.Proof.Gen.ReferenceIdeal.Read
import proofs.«145418_g16793322127803_cont_week2b_1278_15_alg».proof.Proof.Spec

noncomputable section

namespace Cert.ReferenceIdeal.RefValue

open Cert.ReferenceIdeal Cert.ReferenceIdeal.Read Idealize.ShloMosaic Idealize.ShloMosaic.ValueIdx

/-- The host's contraction of the second axis of the left matrix with the first of the right, read at an index, is the
    sum over the inner index of the products: the matrix product. -/
theorem reference_eq (A : S4096x4096.Idx → EReal) (B : S4096x256.Idx → EReal) :
    val_main_v0 (F := Ideal) A B = Cert.Spec.product A B := by
  funext i
  rw [val_main_v0_apply]
  unfold Cert.Spec.product
  refine Finset.sum_congr rfl fun k _ => ?_
  have el : lidx_main_v0 i k = Cert.Spec.atLeft (Cert.Spec.rowOf i) k :=
    funext fun a => Fin.ext (by match a with | ⟨0, _⟩ => rfl | ⟨1, _⟩ => rfl)
  have er : ridx_main_v0 i k = Cert.Spec.atRight k (Cert.Spec.colOf i) :=
    funext fun a => Fin.ext (by match a with | ⟨0, _⟩ => rfl | ⟨1, _⟩ => rfl)
  rw [el, er]

end Cert.ReferenceIdeal.RefValue

end
-- ==== Proof.lean ====
/-
  A row-blocked matrix product against one whole matrix product: out = adj · embeds, with adj 4096 × 4096 and embeds
  4096 × 256.

  The kernel walks a grid of four points. At point t it is handed two 512-row blocks of adj — rows 1024 t … 1024 t + 511
  and rows 1024 t + 512 … 1024 t + 1023, through two windows on the one array — and the whole of embeds, multiplies each
  block with embeds into a zero accumulator, and stores the two 512 × 256 results as the upper and lower halves of the
  1024-row output block at block row t. The reference contracts the second axis of adj with the first of embeds once.

  Over the extended reals both are the same function: entry (r, c) is the sum over k of adj(r, k) · embeds(k, c). Narrowing
  the operands before the product is the identity there, a zero accumulator adds nothing, and each row of the result
  is computed by exactly one point from that row of adj and all of embeds, so no rearrangement of a sum is needed and
  the finiteness of the inputs is never used.

  The three frames: each kernel program's run is its one region's, whose left-matrix share is dealt in halves to the two
  windows that read it; the reference's run is its single host contraction. The idealization rewrote no operation.
-/
import proofs.«145418_g16793322127803_cont_week2b_1278_15_alg».proof.Defs
import proofs.«145418_g16793322127803_cont_week2b_1278_15_alg».proof.Proof.Gen.Kernel
import proofs.«145418_g16793322127803_cont_week2b_1278_15_alg».proof.Proof.Gen.KernelIdeal
import proofs.«145418_g16793322127803_cont_week2b_1278_15_alg».proof.Proof.Gen.ReferenceIdeal
import proofs.«145418_g16793322127803_cont_week2b_1278_15_alg».proof.Proof.Gen.Pre_finite_inputs
import proofs.«145418_g16793322127803_cont_week2b_1278_15_alg».proof.Proof.KernelRegion
import proofs.«145418_g16793322127803_cont_week2b_1278_15_alg».proof.Proof.KernelIdealRegion
import proofs.«145418_g16793322127803_cont_week2b_1278_15_alg».proof.Proof.KernelIdealProduct
import proofs.«145418_g16793322127803_cont_week2b_1278_15_alg».proof.Proof.Reference
import Idealize.ShloMosaic.Adequacy
import Idealize.ShloMosaic.Init

noncomputable section

namespace Cert.Proof

open Idealize.ShloMosaic Idealize.SL.Sem

/-- The kernel as printed runs to the end and leaves its arguments unchanged. -/
theorem frame_kernel : Cert.frame_Kernel := fun m ρ _ => Cert.Kernel.Region.frame m ρ

/-- So does its idealization. -/
theorem frame_ideal : Cert.frame_KernelIdeal := fun m ρ _ => Cert.KernelIdeal.Region.frame m ρ

/-- The reference's run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the two argument matrices, both programs end with the result array at the matrix
    product of the arguments: the kernel block row by block row, the reference by its one contraction. -/
theorem algebraic : Cert.algebraic_KernelIdeal_ReferenceIdeal := by
  intro m ρ m' ρ' _ hagree
  refine ⟨_, Cert.KernelIdeal.Product.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.reference_eq _ _

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
